-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) (main_arg2 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S4096x8192 : Shape := ⟨2, ![4096, 8192]⟩
abbrev S4096x4096 : Shape := ⟨2, ![4096, 4096]⟩
abbrev S256x8192 : Shape := ⟨2, ![256, 8192]⟩
abbrev S2048x512 : Shape := ⟨2, ![2048, 512]⟩
abbrev S2048x2048 : Shape := ⟨2, ![2048, 2048]⟩

abbrev nBuf : Space → Nat
  | .hbm => 5
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .bf16⟩
  | .hbm, ⟨4, _⟩ => ⟨S4096x4096, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x8192, .bf16⟩
  | .local _ .vmem, ⟨5, _⟩ => ⟨S256x8192, .bf16⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x2048, .f32⟩
  | .local _ .vmem, ⟨11, _⟩ => ⟨S2048x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x2048_S2048x2048 : S2048x2048.ShapeCasts S2048x2048
  shapeCasts_S2048x512_S2048x512 : S2048x512.ShapeCasts S2048x512
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .bf16 = 32 ∨ (Rect.block (s := S4096x8192) S256x8192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x8192.size a
  hwx1_0 : ∀ i : grid1.Coords, EltTy.bits .f32 = 32 ∨ (Rect.block (s := S4096x8192) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x8192.size a
  hwx1_1 : ∀ i : grid1.Coords, EltTy.bits .bf16 = 32 ∨ (Rect.block (s := S4096x8192) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S4096x4096.size a
  hwx1_2 : ∀ i : grid1.Coords, EltTy.bits .f32 = 32 ∨ (Rect.block (s := S4096x4096) S2048x2048.size (cc1_transform_2 i) (hinb1_2 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x8192 : Shape := ⟨2, ![4096, 8192]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x8192_S4096x8192_S4096x4096_1_1_0_0_n_n_wf : DotDims.WF S4096x8192 S4096x8192 S4096x4096 [1] [1] [0] [0] [] []

variable [Facts₀]

def dot_S4096x8192_S4096x8192_S4096x4096_1_1_0_0_n_n : DotDims S4096x8192 S4096x8192 S4096x4096 where
  lhsContracting := [1]
  rhsContracting := [1]
  lhsNonContracting := [0]
  rhsNonContracting := [0]
  lhsBatch := []
  rhsBatch := []
  wf := dot_S4096x8192_S4096x8192_S4096x4096_1_1_0_0_n_n_wf

class Facts : Prop extends Facts₀ where

variable [Facts]
-- ==== Proof.KernelRun.lean ====
/-
  The idealized kernel's run with its result array named.

  The program is two kernel regions in a row: the first writes the masked weights, the second the product. Along the
  run the buffer contents are known at each region boundary: at launch, after the first region (its output array at
  what its write-backs leave, every other buffer as before) and after the second (likewise). Every weakly fair
  execution terminates with EVERY unscoped buffer at the last boundary's contents; read at the result buffer that is
  what the second region's write-backs leave of its output window's array, and read at the three arguments it is the
  launch memory.
-/
import proofs.«165935_j12120397709336_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last region boundary names for it and the three arguments as launched. -/
theorem run_boundary : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v0 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result buffer after the second region is what that region's write-backs leave of its output window's array. -/
theorem W2_result (c : Dev nD) : W2 m ρ c (Proc.devRef .tc main_v0) = (dat1 (V1 m ρ) c).arrAt 2 cfg1.N :=
  W2_arr m ρ c 2

/-- The masked-weights buffer, as the second region finds it, is what the first region's write-backs leave of its
    output window's array. -/
theorem V1_masked (c : Dev nD) : V1 m ρ c main_call0_v0 = (dat0 (V0 m ρ) c).arrAt 2 cfg0.N :=
  W1_arr m ρ c 2

/-- The first argument, as the second region finds it, is the launch memory (the first region does not write it). -/
theorem V1_arg0 (c : Dev nD) : V1 m ρ c main_arg0 = m ((c : Thread nD τ).loc main_arg0) :=
  W1_of_ne m ρ c main_arg0 (by decide)

end Cert.KernelIdeal.RunValue

end
-- ==== Proof.MaskedWeights.lean ====
/-
  The first region's output array: the masked weights, as one function of the two arrays it reads.

  The grid has 16 points; point `t` stages rows `256·t … 256·t + 255` (all 8192 columns) of the weight array and of
  the mask array, stores their elementwise product narrowed to the half-width format, and writes that block back to
  the same rows of the output array. The three windows move together, so what point `t` writes back is block `t` of
  the elementwise product of the two whole arrays; the 16 blocks cover every row, so after the region the output array
  IS that product.
-/
import proofs.«165935_j12120397709336_2_alg».proof.Proof.Gen.KernelIdeal.Frame
import Idealize.ShloMosaic.Lib.Pipeline.Value

set_option maxRecDepth 16384

noncomputable section

namespace Cert.KernelIdeal.MaskedWeights

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The elementwise product of a weight array and a mask array, narrowed to the half-width format. -/
abbrev masked (w mk : FVec F S4096x8192 .f32) : FVec F S4096x8192 .bf16 := truncf .bf16 (mulf w mk) bitsLt_bf16_f32

/-- At every point the two input windows sit on the output window's block, which is row block `t`, column block 0. -/
theorem windows_aligned : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of the masked weights of the arrays as the region finds them. -/
theorem flushed_masked (c : Dev nD) (t : Fin cfg0.N) :
    (dat0 V c).flushed 2 t = ((cfg0.win 2).blk t).view.read (Elt F) (masked (V c main_arg1) (V c main_arg2)) := by
  show (cfg0.win 2).cut (grid0.coords t) ((dat0 V c).after 2 t) = _
  rw [after0_2]
  unfold out0_2
  rw [View.canon_unit_zero offsets_zero]
  simp only [View.ld_unit_zero (S := S256x8192) offsets_zero]
  obtain ⟨e0, e1, e2, e3, -, -⟩ := windows_aligned t
  funext j
  show FloatOps.truncf .bf16 bitsLt_bf16_f32 (FloatOps.mulf (V c main_arg1 (((cfg0.win 0).blk t).view.emb j)) (V c main_arg2 (((cfg0.win 1).blk t).view.emb j)))
    = FloatOps.truncf .bf16 bitsLt_bf16_f32 (FloatOps.mulf (V c main_arg1 (((cfg0.win 2).blk t).view.emb j)) (V c main_arg2 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 8192 + 1 * (j 1).val = win0_2.index t (1 : Fin 2) * 8192 + 1 * (j 1).val; omega
  rw [h0, h1]

/-- An index of the output array is in point `t`'s block iff each coordinate is in the block's range on its axis. -/
theorem mem_block (t : Fin cfg0.N) (i : S4096x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_call0_v0).slice (win0_2.rect t)).set ↔ _
  rw [View.set_slice_whole, Rect.mem_set_unit]
  exact Iff.rfl

/-- Row `r` of the output array is written back by point `r / 256`. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 16 := N_0
  have ht : (i 0).val / 256 < cfg0.N := by rw [hN]; omega
  obtain ⟨-, -, -, -, e4, e5⟩ := windows_aligned ⟨(i 0).val / 256, ht⟩
  have e4' : win0_2.index ⟨(i 0).val / 256, ht⟩ (0 : Fin 2) = (i 0).val / 256 := e4
  refine ⟨⟨(i 0).val / 256, ht⟩, flush0_2 _, ?_⟩
  rw [mem_block]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    omega
  | ⟨1, _⟩ =>
    show win0_2.index ⟨(i 0).val / 256, ht⟩ (1 : Fin 2) * 8192 ≤ (i 1).val
      ∧ (i 1).val < win0_2.index ⟨(i 0).val / 256, ht⟩ (1 : Fin 2) * 8192 + 8192
    omega

/-- After the region its output array holds the masked weights of the two arrays as the region found them. -/
theorem final_masked (c : Dev nD) : (dat0 V c).arrAt 2 cfg0.N = masked (V c main_arg1) (V c main_arg2) :=
  (dat0 V c).arrAt_eq_of_cover 2 (masked (V c main_arg1) (V c main_arg2)) (fun t _ => flushed_masked V c t) covered

end Cert.KernelIdeal.MaskedWeights

end
-- ==== Proof.Payload.lean ====
/-
  The two kernel bodies' stored values, read at one element, over the extended reals.

  The first kernel stores the product of its two loaded blocks, element by element (the change of float format that
  follows is the identity on extended reals). The second stores, at row `p` and column `q` of its 2048 × 2048 output
  block, what the block held there plus `Σ_{k<512} x(p,k) · w(q,k)` of its two loaded 2048 × 512 blocks: the matrix
  unit contracts the second axis of both operands into a zero accumulator, and the two reshapes are to the same shape.
-/
import proofs.«165935_j12120397709336_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The second kernel's contraction: axis 1 of the left block against axis 1 of the right block. -/
abbrev contraction := dot_S2048x512_S2048x512_S2048x2048_1_1_0_0_n_n

/-- At output element `i` and contraction position `κ` the left block is read in row `i 0` … -/
theorem left_row (i : S2048x2048.Idx) (κ : contraction.contr.Idx) : (contraction.lhsIdx i κ 0).val = (i 0).val := by
  unfold DotDims.lhsIdx
  rw [dif_neg (show ¬(0 : Fin S2048x512.rank) ∈ contraction.lhsBatch by decide),
    dif_pos (show (0 : Fin S2048x512.rank) ∈ contraction.lhsNonContracting by decide)]
  rfl
/-- … at column `κ`; -/
theorem left_col (i : S2048x2048.Idx) (κ : contraction.contr.Idx) : (contraction.lhsIdx i κ 1).val = (κ ⟨0, by decide⟩).val :=
  contraction.lhsIdx_val_of_single rfl i κ
/-- the right block in row `i 1` … -/
theorem right_row (i : S2048x2048.Idx) (κ : contraction.contr.Idx) : (contraction.rhsIdx i κ 0).val = (i 1).val := by
  unfold DotDims.rhsIdx
  rw [dif_neg (show ¬(0 : Fin S2048x512.rank) ∈ contraction.rhsBatch by decide),
    dif_pos (show (0 : Fin S2048x512.rank) ∈ contraction.rhsNonContracting by decide)]
  rfl
/-- … at column `κ`. -/
theorem right_col (i : S2048x2048.Idx) (κ : contraction.contr.Idx) : (contraction.rhsIdx i κ 1).val = (κ ⟨0, by decide⟩).val :=
  contraction.rhsIdx_val_of_single rfl i κ

/-- The product into the zero accumulator at `(p, q)`: the sum over the 512 shared columns. -/
theorem contract_apply (l r : FVec Ideal S2048x512 .bf16) (p q : Fin 2048) :
    FloatOps.matmul contraction none l r (constant S2048x2048 .f32 0x00000000#32) (ix2 p q)
      = ∑ k : Fin 512, l (ix2 p k) * r (ix2 q k) := by
  rw [Ideal.matmul_constant_zero_apply, ← Equiv.sum_comp (contrEquiv1 contraction 512 rfl rfl).symm]
  refine Finset.sum_congr rfl fun k _ => ?_
  have hk := contrEquiv1_symm_val contraction 512 rfl rfl k
  have el : contraction.lhsIdx (ix2 p q) ((contrEquiv1 contraction 512 rfl rfl).symm k) = ix2 p k :=
    funext fun a => Fin.ext (by
      match a with
      | ⟨0, _⟩ => exact left_row _ _
      | ⟨1, _⟩ => exact (left_col _ _).trans hk)
  have er : contraction.rhsIdx (ix2 p q) ((contrEquiv1 contraction 512 rfl rfl).symm k) = ix2 q k :=
    funext fun a => Fin.ext (by
      match a with
      | ⟨0, _⟩ => exact right_row _ _
      | ⟨1, _⟩ => exact (right_col _ _).trans hk)
  rw [el, er]

/-- The first kernel's stored value at an element: the product of the two loaded elements. -/
theorem masked_apply (w mk : Vec Ideal S256x8192 .f32) (y : S256x8192.Idx) : k0_pay1 w mk y = w y * mk y := rfl

/-- The zero block the second kernel stores at the first step of a reduction is `0` everywhere. -/
theorem zero_apply (y : S2048x2048.Idx) : k1_pay1 (F := Ideal) y = 0 := Ideal.ofBits_zero_f32

/-- The second kernel's stored value at `(p, q)`: what the block held plus the 512-term partial sum. -/
theorem accum_apply (x : Vec Ideal S2048x512 .f32) (acc : Vec Ideal S2048x2048 .f32) (w : Vec Ideal S2048x512 .bf16)
    (p q : Fin 2048) :
    k1_pay2 x acc w (ix2 p q) = acc (ix2 p q) + ∑ k : Fin 512, x (ix2 p k) * w (ix2 q k) := by
  unfold k1_pay2
  show (shapeCast S2048x2048 acc shapeCasts_S2048x2048_S2048x2048) (ix2 p q)
      + FloatOps.matmul (F := Ideal) contraction none (truncf .bf16 x bitsLt_bf16_f32) (shapeCast S2048x512 w shapeCasts_S2048x512_S2048x512)
          (constant S2048x2048 .f32 0x00000000#32) (ix2 p q) = _
  rw [shapeCast_self, shapeCast_self]
  exact congrArg (acc (ix2 p q) + ·) (contract_apply (truncf .bf16 x bitsLt_bf16_f32) w p q)

end Cert.KernelIdeal.Payload

end
-- ==== Proof.Steps.lean ====
/-
  The second region's output block, point by point: a running sum over the reduction axis.

  The grid is 2 × 2 × 16, the last axis innermost: points `16·q … 16·q + 15` share one 2048 × 2048 output block and
  walk the sixteen 512-column slabs of the two operands. At the first point of such a run the body stores the zero
  block and then adds its slab's product to it; at every later point it adds its slab's product to what the point before
  left (the block is not written back in between). So after point `16·q + j` the block holds the fold, over the run's
  first `j + 1` points, of "add this point's product", started from the zero block.
-/
import proofs.«165935_j12120397709336_2_alg».proof.Proof.Gen.KernelIdeal.Frame
import Idealize.ShloMosaic.Lib.Pipeline.Value
import Idealize.ShloMosaic.Lib.Tactic

set_option maxRecDepth 16384

noncomputable section

namespace Cert.KernelIdeal.Steps

open Cert.KernelIdeal Cert.KernelIdeal.Gen Idealize.ShloMosaic Idealize.ShloMosaic.TcCoe Idealize.SL.Sem
open Idealize.ShloMosaic.Tactic

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- A later point of a run: the body leaves, in the output block holding `acc`, the stored value computed from the two
    loaded slabs and `acc` — its one store covers the block, and its loads read the whole buffers. -/
theorem step_value (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : ¬cond1_0 i) (x : Vec F S2048x512 .f32) (w : Vec F S2048x512 .bf16) (acc : Vec F S2048x2048 .f32) :
    out1_B_2 c i a3 h3 a4 h4 a5 h5 hc x w acc = k1_pay2 x acc w := by
  unfold out1_B_2
  rw [View.read_writes_eq_canon _ _ _ (cover1_B_2 c i a3 h3 a4 h4 a5 h5 hc x w acc)]
  unfold kernelRun1_B
  dsimp only
  rw [View.canon_unit_zero offsets_zero]
  simp only [View.readAt_eq_ld, h3.read_unread, h4.read_unread, h5.read_unread,
    View.ld_unit_zero (S := S2048x512) offsets_zero, View.ld_unit_zero (S := S2048x2048) offsets_zero]

/-- The first point of a run: the body stores the zero block, reads it back, and leaves the same stored value computed
    over the zero block. -/
theorem reset_value (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : cond1_0 i) (x : Vec F S2048x512 .f32) (w : Vec F S2048x512 .bf16) :
    out1_A_2 c i a3 h3 a4 h4 a5 h5 hc x w = k1_pay2 x (k1_pay1 (F := F)) w := by
  unfold out1_A_2
  rw [View.read_writes_eq_canon _ _ _ (cover1_A_2 c i a3 h3 a4 h4 a5 h5 hc x w)]
  unfold kernelRun1_A
  dsimp only
  sl_unfold_words
  rw [View.canon_cons_unit_zero (S := S2048x2048) offsets_zero, View.readCov_unit_zero (S := S2048x2048) _ offsets_zero]
  simp only [View.readAt_eq_ld, h3.read_unread, h4.read_unread, View.ld_unit_zero (S := S2048x512) offsets_zero]

/-- Point `n`'s slab of the left operand and of the right operand, as the region's windows stage them. -/
abbrev leftSlab (c : Dev nD) (n : ℕ) (h : n < cfg1.N) : Vec F S2048x512 .f32 := iblk1 V c 0 ⟨n, h⟩
abbrev rightSlab (c : Dev nD) (n : ℕ) (h : n < cfg1.N) : Vec F S2048x512 .bf16 := iblk1 V c 1 ⟨n, h⟩

/-- What the output block holds after point `t`: the fold over the run `16·(t / 16) … t`, from the zero block at the
    run's first point, of each point's stored value over what the point before left. -/
theorem block_fold (c : Dev nD) (t : ℕ) (ht : t < cfg1.N) (h' : 16 * (t / 16) + t % 16 < cfg1.N) :
    outsAt1 V c t ht = Pipeline.accAt (N := cfg1.N)
      (fun n h => k1_pay2 (leftSlab V c n h) (k1_pay1 (F := F)) (rightSlab V c n h))
      (fun n h acc => k1_pay2 (leftSlab V c n h) acc (rightSlab V c n h)) (16 * (t / 16)) (t % 16) h' :=
  Pipeline.eq_accAt_of_mod (fun n h => outsAt1 V c n h) 16
    (fun n h => k1_pay2 (leftSlab V c n h) (k1_pay1 (F := F)) (rightSlab V c n h))
    (fun n h acc => k1_pay2 (leftSlab V c n h) acc (rightSlab V c n h))
    (fun n h h0 => by
      rw [outsAt1_A V c ⟨n, h⟩ h0, reset_value])
    (fun n h hB => by
      rw [outsAt1_B V c ⟨n + 1, h⟩ hB, step_value]
      rfl)
    (by decide) t ht h'

end Cert.KernelIdeal.Steps

end
-- ==== Proof.LibBlockSum.lean ====
/-
  A finite sum taken in consecutive blocks.

  In any additive commutative monoid the sum of `f` over the first `J * K` naturals is the sum, over the `J`
  consecutive blocks of `K` naturals, of each block's own sum: `Σ_{s<J} Σ_{k<K} f (s·K + k) = Σ_{i<J·K} f i`.
  Only associativity, commutativity and the zero of `+` are used, so the statement holds on the extended reals with
  no finiteness assumption. A function on `Fin n` is carried to the naturals by extending it with zeros
  (`zeroExt`), which turns a `Fin`-indexed sum into a `Finset.range` sum and back.
-/
import Mathlib.Algebra.BigOperators.Fin
import Mathlib.Algebra.BigOperators.Group.Finset.Basic

namespace Cert.Lib.BlockSum

open Finset

variable {β : Type*} [AddCommMonoid β]

/-- The sum over the first `J * K` naturals, taken block by block: block `s` is `s·K, …, s·K + K - 1`. -/
theorem sum_range_blocks (J K : ℕ) (f : ℕ → β) :
    ∑ s ∈ range J, ∑ k ∈ range K, f (s * K + k) = ∑ i ∈ range (J * K), f i := by
  induction J with
  | zero => simp
  | succ J ih => rw [sum_range_succ, ih, Nat.succ_mul, sum_range_add]

/-- A function on `Fin n` extended to every natural by zero past `n`. -/
def zeroExt {n : ℕ} (f : Fin n → β) : ℕ → β := fun i => if h : i < n then f ⟨i, h⟩ else 0

/-- Below `n` the extension is the function. -/
theorem zeroExt_of_lt {n : ℕ} (f : Fin n → β) (i : ℕ) (h : i < n) : zeroExt f i = f ⟨i, h⟩ := dif_pos h

theorem zeroExt_val {n : ℕ} (f : Fin n → β) (i : Fin n) : zeroExt f i.val = f i := dif_pos i.isLt

/-- A `Fin n`-indexed sum is the sum of the extension over the first `n` naturals. -/
theorem sum_fin_eq_sum_range {n : ℕ} (f : Fin n → β) : ∑ i : Fin n, f i = ∑ i ∈ range n, zeroExt f i := by
  rw [Finset.sum_range]
  exact Finset.sum_congr rfl fun i _ => (zeroExt_val f i).symm

/-- The whole `Fin (J·K)`-indexed sum, block by block: block `s`'s sum runs over `k : Fin K` at position `s·K + k`. -/
theorem sum_fin_blocks {N : ℕ} (J K : ℕ) (hN : N = J * K) (f : Fin N → β) :
    ∑ s ∈ range J, ∑ k : Fin K, zeroExt f (s * K + k.val) = ∑ i : Fin N, f i := by
  subst hN
  rw [sum_fin_eq_sum_range f, ← sum_range_blocks]
  exact Finset.sum_congr rfl fun s _ => (Finset.sum_range fun k => zeroExt f (s * K + k)).symm

end Cert.Lib.BlockSum
-- ==== Proof.Product.lean ====
/-
  The second region's output array over the extended reals: the product of the left array with the transposed right
  array, `out(b, o) = Σ_{i<8192} x(b, i) · w(o, i)`.

  Output block `(r, s)` (2048 × 2048) is accumulated over the sixteen points of its run and written back after the last
  one. Point `16·q + j` of the run adds, at block element `(p, u)`, the partial sum over columns `512·j … 512·j + 511`
  of `x(2048·r + p, ·) · w(2048·s + u, ·)`. The fold therefore leaves `0 +` the sum of the sixteen partial sums, which
  is the whole 8192-term sum taken in consecutive blocks of 512: addition on the extended reals is associative and
  commutative with unit `0`, and nothing else is used, so no finiteness of the inputs is needed. The four output blocks
  cover the array.
-/
import proofs.«165935_j12120397709336_2_alg».proof.Proof.Gen.KernelIdeal.Frame
import proofs.«165935_j12120397709336_2_alg».proof.Proof.Payload
import proofs.«165935_j12120397709336_2_alg».proof.Proof.Steps
import proofs.«165935_j12120397709336_2_alg».proof.Proof.LibBlockSum
import Idealize.ShloMosaic.Lib.Pipeline.Value
import Idealize.ShloMosaic.Lib.ValueIdx

set_option maxRecDepth 16384

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Payload Cert.KernelIdeal.Steps Cert.Lib.BlockSum

variable (V : (c : Dev nD) → (b : Ref sig .tc) → Buf (Elt Ideal) ((c : Thread nD τ).loc b))

/-- The product of a left array with the transpose of a right array: row `j 0` of the one against row `j 1` of the
    other, summed over the 8192 shared columns. -/
def rowProduct (x : FVec Ideal S4096x8192 .f32) (w : FVec Ideal S4096x8192 .bf16) : FVec Ideal S4096x4096 .f32 :=
  fun j => ∑ i : Fin 8192, x (ix2 (⟨(j 0).val, (j 0).isLt⟩ : Fin 4096) i) * w (ix2 (⟨(j 1).val, (j 1).isLt⟩ : Fin 4096) i)

/-- How the three windows sit at point `t` of the 2 × 2 × 16 grid (last axis innermost). -/
theorem grid_layout : ∀ t : Fin cfg1.N, win1_0.index t (0 : Fin 2) = t.val / 32
    ∧ win1_0.index t (1 : Fin 2) = t.val % 16
    ∧ win1_1.index t (0 : Fin 2) = t.val / 16 % 2
    ∧ win1_1.index t (1 : Fin 2) = t.val % 16
    ∧ win1_2.index t (0 : Fin 2) = t.val / 32
    ∧ win1_2.index t (1 : Fin 2) = t.val / 16 % 2 :=
  (by decide +kernel : ∀ t : Fin grid1.N, _)

/-- The left slab at point `t`, read at `(p, k)`: the left array at the block's row and column offsets plus `(p, k)`. -/
theorem left_read (c : Dev nD) (t : Fin cfg1.N) (p : Fin 2048) (k : Fin 512) (P : Fin 4096) (I : Fin 8192)
    (hP : P.val = win1_0.index t (0 : Fin 2) * 2048 + p.val) (hI : I.val = win1_0.index t (1 : Fin 2) * 512 + k.val) :
    (iblk1 V c 0 t : Vec Ideal S2048x512 .f32) (ix2 p k) = V c main_arg0 (ix2 P I) := by
  show V c main_arg0 (((cfg1.win 0).blk t).view.emb (ix2 p k)) = V c main_arg0 (ix2 P I)
  refine congrArg (V c main_arg0) ?_
  funext a; apply Fin.ext
  match a with
  | ⟨0, _⟩ => show win1_0.index t (0 : Fin 2) * 2048 + 1 * p.val = P.val; omega
  | ⟨1, _⟩ => show win1_0.index t (1 : Fin 2) * 512 + 1 * k.val = I.val; omega

/-- The right slab at point `t`, read at `(u, k)`, likewise. -/
theorem right_read (c : Dev nD) (t : Fin cfg1.N) (u : Fin 2048) (k : Fin 512) (Q : Fin 4096) (I : Fin 8192)
    (hQ : Q.val = win1_1.index t (0 : Fin 2) * 2048 + u.val) (hI : I.val = win1_1.index t (1 : Fin 2) * 512 + k.val) :
    (iblk1 V c 1 t : Vec Ideal S2048x512 .bf16) (ix2 u k) = V c main_call0_v0 (ix2 Q I) := by
  show V c main_call0_v0 (((cfg1.win 1).blk t).view.emb (ix2 u k)) = V c main_call0_v0 (ix2 Q I)
  refine congrArg (V c main_call0_v0) ?_
  funext a; apply Fin.ext
  match a with
  | ⟨0, _⟩ => show win1_1.index t (0 : Fin 2) * 2048 + 1 * u.val = Q.val; omega
  | ⟨1, _⟩ => show win1_1.index t (1 : Fin 2) * 512 + 1 * k.val = I.val; omega

/-- What point `n` adds to the output block at element `(p, u)`: the 512-term partial sum of its two slabs (zero for a
    natural past the grid, which is never asked). -/
def addend (c : Dev nD) (n : ℕ) (y : S2048x2048.Idx) : EReal :=
  if h : n < cfg1.N then
    ∑ k : Fin 512, (leftSlab V c n h) (ix2 (⟨(y 0).val, (y 0).isLt⟩ : Fin 2048) k)
      * (rightSlab V c n h) (ix2 (⟨(y 1).val, (y 1).isLt⟩ : Fin 2048) k)
  else 0

/-- The body's stored value at point `n` over a block holding `acc`: `acc` plus the point's addend, element by element. -/
theorem stored_eq (c : Dev nD) (n : ℕ) (h : n < cfg1.N) (acc : Vec Ideal S2048x2048 .f32) (y : S2048x2048.Idx) :
    k1_pay2 (leftSlab V c n h) acc (rightSlab V c n h) y = acc y + addend V c n y := by
  obtain ⟨p, u, rfl⟩ : ∃ (p u : Fin 2048), y = ix2 p u := ⟨y 0, y 1, eq_ix2 y⟩
  refine (accum_apply (leftSlab V c n h) acc (rightSlab V c n h) p u).trans ?_
  unfold addend
  rw [dif_pos h]

/-- After the last point of a run the block holds, at each element, the sum of the run's sixteen addends. -/
theorem block_after_run (c : Dev nD) (t : Fin cfg1.N) (h15 : t.val % 16 = 15) (y : S2048x2048.Idx) :
    outsAt1 V c t.val t.isLt y = ∑ s ∈ Finset.range 16, addend V c (16 * (t.val / 16) + s) y := by
  have hN : cfg1.N = 64 := N_1
  have htl : t.val < 64 := hN ▸ t.isLt
  have h' : 16 * (t.val / 16) + t.val % 16 < cfg1.N := lt_of_lt_of_eq (by omega) hN.symm
  rw [block_fold V c t.val t.isLt h']
  have key := Pipeline.accAt_add_apply (N := cfg1.N) (ι := S2048x2048.Idx) (β := EReal)
    (fun n h => k1_pay2 (leftSlab V c n h) (k1_pay1 (F := Ideal)) (rightSlab V c n h))
    (fun n h acc => k1_pay2 (leftSlab V c n h) acc (rightSlab V c n h))
    (fun _ => 0) (addend V c) (16 * (t.val / 16)) 15
    (fun h i => by rw [stored_eq V c _ h, Payload.zero_apply])
    (fun n h acc i _ _ => stored_eq V c n h acc i)
    (t.val % 16) (by omega) h' y
  rw [key, zero_add, h15]

/-- What a flushing point writes back is its block of the row product of the two arrays as the region finds them. -/
theorem flushed_product (c : Dev nD) (t : Fin cfg1.N) (hf : (cfg1.win 2).flush t = true) :
    (dat1 V c).flushed 2 t
      = ((cfg1.win 2).blk t).view.read (Elt Ideal) (rowProduct (V c main_arg0) (V c main_call0_v0)) := by
  have hN : cfg1.N = 64 := N_1
  have htl : t.val < 64 := hN ▸ t.isLt
  have h15 : t.val % 16 = 15 := (flush1_2 t).mp hf
  show (cfg1.win 2).cut (grid1.coords t) ((dat1 V c).after 2 t) = _
  rw [after1_2]
  funext y
  show outsAt1 V c t.val t.isLt y = rowProduct (V c main_arg0) (V c main_call0_v0) (((cfg1.win 2).blk t).view.emb y)
  rw [block_after_run V c t h15 y]
  unfold rowProduct
  rw [← sum_fin_blocks 16 512 rfl]
  obtain ⟨-, -, -, -, o0, o1⟩ := grid_layout t
  have hy0 : (y 0).val < 2048 := (y 0).isLt
  have hy1 : (y 1).val < 2048 := (y 1).isLt
  refine Finset.sum_congr rfl fun s hs => ?_
  have hs' : s < 16 := Finset.mem_range.mp hs
  have hn : 16 * (t.val / 16) + s < cfg1.N := lt_of_lt_of_eq (by omega) hN.symm
  obtain ⟨l0, l1, r0, r1, -, -⟩ := grid_layout ⟨16 * (t.val / 16) + s, hn⟩
  have l0' : win1_0.index ⟨16 * (t.val / 16) + s, hn⟩ (0 : Fin 2) = (16 * (t.val / 16) + s) / 32 := l0
  have l1' : win1_0.index ⟨16 * (t.val / 16) + s, hn⟩ (1 : Fin 2) = (16 * (t.val / 16) + s) % 16 := l1
  have r0' : win1_1.index ⟨16 * (t.val / 16) + s, hn⟩ (0 : Fin 2) = (16 * (t.val / 16) + s) / 16 % 2 := r0
  have r1' : win1_1.index ⟨16 * (t.val / 16) + s, hn⟩ (1 : Fin 2) = (16 * (t.val / 16) + s) % 16 := r1
  unfold addend
  rw [dif_pos hn]
  refine Finset.sum_congr rfl fun k _ => ?_
  have hk : k.val < 512 := k.isLt
  rw [zeroExt_of_lt _ _ (by omega : s * 512 + k.val < 8192)]
  have hl := left_read V c ⟨16 * (t.val / 16) + s, hn⟩ ⟨(y 0).val, (y 0).isLt⟩ k
    ⟨((((cfg1.win 2).blk t).view.emb y) 0).val, ((((cfg1.win 2).blk t).view.emb y) 0).isLt⟩ ⟨s * 512 + k.val, by omega⟩
    (by show win1_2.index t (0 : Fin 2) * 2048 + 1 * (y 0).val
          = win1_0.index ⟨16 * (t.val / 16) + s, hn⟩ (0 : Fin 2) * 2048 + (y 0).val; omega)
    (by show s * 512 + k.val = win1_0.index ⟨16 * (t.val / 16) + s, hn⟩ (1 : Fin 2) * 512 + k.val; omega)
  have hr := right_read V c ⟨16 * (t.val / 16) + s, hn⟩ ⟨(y 1).val, (y 1).isLt⟩ k
    ⟨((((cfg1.win 2).blk t).view.emb y) 1).val, ((((cfg1.win 2).blk t).view.emb y) 1).isLt⟩ ⟨s * 512 + k.val, by omega⟩
    (by show win1_2.index t (1 : Fin 2) * 2048 + 1 * (y 1).val
          = win1_1.index ⟨16 * (t.val / 16) + s, hn⟩ (0 : Fin 2) * 2048 + (y 1).val; omega)
    (by show s * 512 + k.val = win1_1.index ⟨16 * (t.val / 16) + s, hn⟩ (1 : Fin 2) * 512 + k.val; omega)
  exact congrArg₂ (· * ·) hl hr

/-- An index of the output array is in point `t`'s block iff each coordinate is in the block's range on its axis. -/
theorem mem_block (t : Fin cfg1.N) (i : S4096x4096.Idx) :
    i ∈ ((cfg1.win 2).blk t).view.set ↔ ∀ a : Fin 2, win1_2.index t a * S2048x2048.size a ≤ (i a).val
      ∧ (i a).val < win1_2.index t a * S2048x2048.size a + S2048x2048.size a := by
  show i ∈ ((View.whole main_v0).slice (win1_2.rect t)).set ↔ _
  rw [View.set_slice_whole, Rect.mem_set_unit]
  exact Iff.rfl

/-- Element `(b, o)` of the output array is written back by the last point of block `(b / 2048, o / 2048)`'s run. -/
theorem covered (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 64 := N_1
  have ht : 32 * ((i 0).val / 2048) + 16 * ((i 1).val / 2048) + 15 < cfg1.N := lt_of_lt_of_eq (by omega) hN.symm
  obtain ⟨-, -, -, -, o0, o1⟩ := grid_layout ⟨32 * ((i 0).val / 2048) + 16 * ((i 1).val / 2048) + 15, ht⟩
  have o0' : win1_2.index ⟨32 * ((i 0).val / 2048) + 16 * ((i 1).val / 2048) + 15, ht⟩ (0 : Fin 2)
      = (32 * ((i 0).val / 2048) + 16 * ((i 1).val / 2048) + 15) / 32 := o0
  have o1' : win1_2.index ⟨32 * ((i 0).val / 2048) + 16 * ((i 1).val / 2048) + 15, ht⟩ (1 : Fin 2)
      = (32 * ((i 0).val / 2048) + 16 * ((i 1).val / 2048) + 15) / 16 % 2 := o1
  refine ⟨⟨32 * ((i 0).val / 2048) + 16 * ((i 1).val / 2048) + 15, ht⟩, (flush1_2 _).mpr (by show (32 * ((i 0).val / 2048) + 16 * ((i 1).val / 2048) + 15) % 16 = 15; omega), ?_⟩
  rw [mem_block]
  intro a
  match a with
  | ⟨0, _⟩ =>
    show win1_2.index ⟨32 * ((i 0).val / 2048) + 16 * ((i 1).val / 2048) + 15, ht⟩ (0 : Fin 2) * 2048 ≤ (i 0).val
      ∧ (i 0).val < win1_2.index ⟨32 * ((i 0).val / 2048) + 16 * ((i 1).val / 2048) + 15, ht⟩ (0 : Fin 2) * 2048 + 2048
    omega
  | ⟨1, _⟩ =>
    show win1_2.index ⟨32 * ((i 0).val / 2048) + 16 * ((i 1).val / 2048) + 15, ht⟩ (1 : Fin 2) * 2048 ≤ (i 1).val
      ∧ (i 1).val < win1_2.index ⟨32 * ((i 0).val / 2048) + 16 * ((i 1).val / 2048) + 15, ht⟩ (1 : Fin 2) * 2048 + 2048
    omega

/-- After the region its output array holds the row product of the two arrays as the region found them. -/
theorem final_product (c : Dev nD) :
    (dat1 V c).arrAt 2 cfg1.N = rowProduct (V c main_arg0) (V c main_call0_v0) :=
  (dat1 V c).arrAt_eq_of_cover 2 (rowProduct (V c main_arg0) (V c main_call0_v0))
    (fun t hf => flushed_product V c t hf) covered

end Cert.KernelIdeal.Product

end
-- ==== Proof.Bridge.lean ====
/-
  Both programs compute one function of the three argument arrays.

  Kernel side: the result buffer after the second region is the row product of the first argument with the masked
  weights — the second region finds the first argument as launched (the first region does not write it) and finds, in
  the intermediate buffer, what the first region left there: the elementwise product of the second and third arguments.
  Reference side: the host multiplies the second and third arguments elementwise and contracts the first argument's
  columns against the product's columns; read at an index that is the same 8192-term sum of the same products.
-/
import proofs.«165935_j12120397709336_2_alg».proof.Proof.KernelRun
import proofs.«165935_j12120397709336_2_alg».proof.Proof.MaskedWeights
import proofs.«165935_j12120397709336_2_alg».proof.Proof.Product
import proofs.«165935_j12120397709336_2_alg».proof.Proof.Gen.ReferenceIdeal.Read

noncomputable section

namespace Cert.Bridge

open Idealize.ShloMosaic Idealize.ShloMosaic.TcCoe Idealize.SL.Sem Idealize.ShloMosaic.ValueIdx
open Cert.KernelIdeal.Product (rowProduct)
open Cert.KernelIdeal.MaskedWeights (masked)

/-- The common result: row `b` of `x` against row `o` of the elementwise product `w · mk`. -/
abbrev result (x w mk : FVec Ideal Cert.KernelIdeal.S4096x8192 .f32) : FVec Ideal Cert.KernelIdeal.S4096x4096 .f32 :=
  rowProduct x (masked w mk)

section Kernel

open Cert.KernelIdeal Cert.KernelIdeal.Gen Cert.KernelIdeal.RunValue

variable (m : (ℓ : Loc nD τ sig) → Buf (Elt Ideal) ℓ) (ρ : Dev nD → PrngReg)

/-- The result buffer's contents at the last region boundary are the common result of the launch memory's arguments. -/
theorem kernel_result (c : Dev nD) :
    W2 m ρ c (Proc.devRef .tc main_v0)
      = result (m ((c.tc : Thread nD τ).loc main_arg0)) (m ((c.tc : Thread nD τ).loc main_arg1)) (m ((c.tc : Thread nD τ).loc main_arg2)) :=
  (W2_result m ρ c).trans
    ((Cert.KernelIdeal.Product.final_product (V1 m ρ) c).trans
      (congrArg₂ rowProduct (V1_arg0 m ρ c)
        ((V1_masked m ρ c).trans (Cert.KernelIdeal.MaskedWeights.final_masked (V0 m ρ) c))))

/-- The idealized kernel's run: the result buffer at the common result, the arguments as launched. -/
theorem kernel_run : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_result m ρ c), (h c).2⟩) (run_boundary (F := Ideal) m ρ)

end Kernel

section Reference

open Cert.ReferenceIdeal Cert.ReferenceIdeal.Read

/-- The reference's contraction of `x` against the elementwise product, read index by index, is the common result. -/
theorem reference_result (x w mk : FVec Ideal Cert.KernelIdeal.S4096x8192 .f32) :
    val_main_v1 (F := Ideal) x w mk = result x w mk := by
  funext i
  rw [val_main_v1_apply]
  unfold result rowProduct
  refine Finset.sum_congr rfl fun k _ => ?_
  have el : lidx_main_v1 i k = ix2 (⟨(i 0).val, (i 0).isLt⟩ : Fin 4096) k :=
    funext fun a => by match a with | ⟨0, _⟩ => rfl | ⟨1, _⟩ => rfl
  have er : ridx_main_v1 i k = ix2 (⟨(i 1).val, (i 1).isLt⟩ : Fin 4096) k :=
    funext fun a => by match a with | ⟨0, _⟩ => rfl | ⟨1, _⟩ => rfl
  rw [el, er]
  rfl

end Reference

end Cert.Bridge

end
-- ==== Proof.lean ====
/-
  Masked dense layer: `out(b, o) = Σ_{i<8192} x(b, i) · (weight(o, i) · mask(o, i))`, a two-kernel program against its
  plain reference, compared over the extended reals.

  The kernel program first forms the masked weights `weight · mask` elementwise (row blocks of 256), then multiplies
  `x` by their transpose with the contraction cut into sixteen slabs of 512 columns, each 2048 × 2048 output block
  accumulated in place over its sixteen grid points from a zero block. The reference multiplies `weight · mask`
  elementwise and contracts all 8192 columns at once. Over the extended reals every change of float format is the
  identity, so both are sums of the same 8192 products per output element; the kernel's is that sum taken in sixteen
  consecutive blocks after a leading `0`. Addition on the extended reals is associative and commutative with unit `0`
  (an infinite term changes nothing about regrouping), so the two agree at EVERY input: the finiteness precondition is
  not used by the equality.

  The three frames: the two kernel programs' are the generated frame certificates; the reference's is its generated run
  with the result forgotten. The idealization rewrote no operation, so there is nothing to preserve beyond `True`.
-/
import proofs.«165935_j12120397709336_2_alg».proof.Defs
import proofs.«165935_j12120397709336_2_alg».proof.Proof.Gen.Kernel
import proofs.«165935_j12120397709336_2_alg».proof.Proof.Gen.Kernel.Skeleton
import proofs.«165935_j12120397709336_2_alg».proof.Proof.Gen.Kernel.Launch
import proofs.«165935_j12120397709336_2_alg».proof.Proof.Gen.Kernel.Points
import proofs.«165935_j12120397709336_2_alg».proof.Proof.Gen.Kernel.Frame
import proofs.«165935_j12120397709336_2_alg».proof.Proof.Gen.KernelIdeal
import proofs.«165935_j12120397709336_2_alg».proof.Proof.Gen.KernelIdeal.Skeleton
import proofs.«165935_j12120397709336_2_alg».proof.Proof.Gen.KernelIdeal.Launch
import proofs.«165935_j12120397709336_2_alg».proof.Proof.Gen.KernelIdeal.Points
import proofs.«165935_j12120397709336_2_alg».proof.Proof.Gen.KernelIdeal.Frame
import proofs.«165935_j12120397709336_2_alg».proof.Proof.Gen.ReferenceIdeal
import proofs.«165935_j12120397709336_2_alg».proof.Proof.Gen.ReferenceIdeal.Run
import proofs.«165935_j12120397709336_2_alg».proof.Proof.Gen.ReferenceIdeal.Read
import proofs.«165935_j12120397709336_2_alg».proof.Proof.Gen.Pre_finite_inputs
import proofs.«165935_j12120397709336_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the result buffer at the common
    result of those arguments, and with the arguments unchanged. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Bridge.reference_result _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
